-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_sqrt_s" .f32 0x3D3504F3#32 ((524288 / 11863283 : ℝ) : EReal)
  ∧ IdealRules.named_const.Statement Cert.KernelIdeal.κ "inv_sqrt_s" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x512x512 : Shape := ⟨4, ![4, 8, 512, 512]⟩
abbrev S8x8x4x512x512 : Shape := ⟨5, ![8, 8, 4, 512, 512]⟩
abbrev S_ : Shape := ⟨0, ![]⟩

class Facts : Prop where
  bcast_S_S4x8x512x512 : S_.BroadcastsInDim S4x8x512x512 (![] : Fin 0 → Fin S4x8x512x512.rank)
  reducesTo_S4x8x512x512_S_d0_1_2_3 : S4x8x512x512.ReducesTo [0, 1, 2, 3] S_
  h_S_ : 0 < S_.numel
  bcast_S_S8x8x4x512x512 : S_.BroadcastsInDim S8x8x4x512x512 (![] : Fin 0 → Fin S8x8x4x512x512.rank)
  reducesTo_S8x8x4x512x512_S_d0_1_2_3_4 : S8x8x4x512x512.ReducesTo [0, 1, 2, 3, 4] S_

variable [Facts]

def fn {F : FTy → Type} [FloatOps F] (main_arg0 : FVec F S4x8x512x512 .f32) (main_arg1 : FVec F S8x8x4x512x512 .f32) : IVec S_ 1 :=
  let main_v0 : FVec F S4x8x512x512 .f32 := Host.absf main_arg0
  let main_cst : FVec F S_ .f32 := constant S_ .f32 0x7F800000#32
  let main_v1 : FVec F S4x8x512x512 .f32 := broadcastInDim S4x8x512x512 ![] bcast_S_S4x8x512x512 main_cst
  let main_v2 : IVec S4x8x512x512 1 := cmpf .olt main_v0 main_v1
  let main_c : IVec S_ 1 := constantI S_ 1 1#1
  let main_v3 : IVec S_ 1 := (fun x v => Host.reduce IntOp.andi x v reducesTo_S4x8x512x512_S_d0_1_2_3 h_S_) main_v2 main_c
  let main_v4 : FVec F S8x8x4x512x512 .f32 := Host.absf main_arg1
  let main_cst_0 : FVec F S_ .f32 := constant S_ .f32 0x7F800000#32
  let main_v5 : FVec F S8x8x4x512x512 .f32 := broadcastInDim S8x8x4x512x512 ![] bcast_S_S8x8x4x512x512 main_cst_0
  let main_v6 : IVec S8x8x4x512x512 1 := cmpf .olt main_v4 main_v5
  let main_c_1 : IVec S_ 1 := constantI S_ 1 1#1
  let main_v7 : IVec S_ 1 := (fun x v => Host.reduce IntOp.andi x v reducesTo_S8x8x4x512x512_S_d0_1_2_3_4 h_S_) main_v6 main_c_1
  let main_v8 : IVec S_ 1 := andi main_v3 main_v7
  main_v8
-- ==== Kernel.lean ====
abbrev S4x8x512x512 : Shape := ⟨4, ![4, 8, 512, 512]⟩
abbrev S8x8x4x512x512 : Shape := ⟨5, ![8, 8, 4, 512, 512]⟩
abbrev S256x512x512 : Shape := ⟨3, ![256, 512, 512]⟩
abbrev S2x512x512 : Shape := ⟨3, ![2, 512, 512]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S4x4x512x512 : Shape := ⟨4, ![4, 4, 512, 512]⟩
abbrev S_ : Shape := ⟨0, ![]⟩

abbrev nBuf : Space → Nat
  | .hbm => 25
  | .vmem => 6
  | .smem => 0
  | _ => 0

abbrev bufTy : (tb : Table) → Fin (tcTables nBuf tb) → BufTy
  | .hbm, ⟨0, _⟩ => ⟨S4x8x512x512, .f32⟩
  | .hbm, ⟨1, _⟩ => ⟨S8x8x4x512x512, .f32⟩
  | .hbm, ⟨2, _⟩ => ⟨S256x512x512, .f32⟩
  | .hbm, ⟨3, _⟩ => ⟨S256x512x512, .f32⟩
  | .hbm, ⟨4, _⟩ => ⟨S256x512x512, .f32⟩
  | .hbm, ⟨5, _⟩ => ⟨S8x8x4x512x512, .f32⟩
  | .hbm, ⟨6, _⟩ => ⟨S8x8x4x512x512, .f32⟩
  | .hbm, ⟨7, _⟩ => ⟨S512, .i32⟩
  | .hbm, ⟨8, _⟩ => ⟨S1x512, .i32⟩
  | .hbm, ⟨9, _⟩ => ⟨S512x1, .i32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S512x512, .f32⟩
  | .hbm, ⟨14, _⟩ => ⟨S1x512, .i32⟩
  | .hbm, ⟨15, _⟩ => ⟨S512x1, .i32⟩
  | .hbm, ⟨16, _⟩ => ⟨S512x512, .i32⟩
  | .hbm, ⟨17, _⟩ => ⟨S512x512, .i32⟩
  | .hbm, ⟨18, _⟩ => ⟨S512x512, .i1⟩
  | .hbm, ⟨19, _⟩ => ⟨S512x512, .f32⟩
  | .hbm, ⟨20, _⟩ => ⟨S512x512, .f32⟩
  | .hbm, ⟨21, _⟩ => ⟨S4x4x512x512, .f32⟩
  | .hbm, ⟨22, _⟩ => ⟨S_, .f32⟩
  | .hbm, ⟨23, _⟩ => ⟨S4x4x512x512, .f32⟩
  | .hbm, ⟨24, _⟩ => ⟨S4x4x512x512, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S2x512x512, .f32⟩
  | .local _ .vmem, ⟨5, _⟩ => ⟨S2x512x512, .f32⟩
  | _, _ => ⟨S4x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x8x4x512x512_S256x512x512 : S8x8x4x512x512.ShapeCasts S256x512x512
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  bitsLt_bf16_f32 : FTy.bits .bf16 < FTy.bits .f32
  reduces_S512x512_S512 : S512x512.Reduces [1] S512
  shapeCasts_S512_S512x1 : S512.ShapeCasts S512x1
  broadcasts_S512x1_S512x512 : S512x1.Broadcasts S512x512
  shapeCasts_S512x512_S1x512x512 : S512x512.ShapeCasts S1x512x512
  inb_S2x512x512_S1x512x512_1_0_0 : ∀ a, (![1, 0, 0] : Fin 3 → Nat) a + S1x512x512.size a ≤ S2x512x512.size a
  shapeCasts_S256x512x512_S8x8x4x512x512 : S256x512x512.ShapeCasts S8x8x4x512x512
  bcast_S512_S1x512_1 : S512.BroadcastsInDim S1x512 (![1] : Fin 1 → Fin S1x512.rank)
  bcast_S512_S512x1_0 : S512.BroadcastsInDim S512x1 (![0] : Fin 1 → Fin S512x1.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S512x512_S4x4x512x512_2_3 : S512x512.BroadcastsInDim S4x4x512x512 (![2, 3] : Fin 2 → Fin S4x4x512x512.rank)
  bcast_S_S4x4x512x512 : S_.BroadcastsInDim S4x4x512x512 (![] : Fin 0 → Fin S4x4x512x512.rank)
  dot_S512x512_S512x512_S512x512_1_1_0_0_n_n_wf : DotDims.WF S512x512 S512x512 S512x512 [1] [1] [0] [0] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S256x512x512.size a
  hwx0_0 : ∀ i : grid0.Coords, EltTy.bits .f32 = 32 ∨ (Rect.block (s := S256x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S256x512x512.size a
  hwx0_1 : ∀ i : grid0.Coords, EltTy.bits .f32 = 32 ∨ (Rect.block (s := S256x512x512) S2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x512.size a ≤ S256x512x512.size a
  hwx0_2 : ∀ i : grid0.Coords, EltTy.bits .f32 = 32 ∨ (Rect.block (s := S256x512x512) S2x512x512.size (cc0_transform_2 i) (hinb0_2 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S2x512x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S2x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8x512x512 : Shape := ⟨4, ![4, 8, 512, 512]⟩
abbrev S8x8x4x512x512 : Shape := ⟨5, ![8, 8, 4, 512, 512]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S4x4x512x512 : Shape := ⟨4, ![4, 4, 512, 512]⟩
abbrev S_ : Shape := ⟨0, ![]⟩
abbrev S1x4x512x512 : Shape := ⟨4, ![1, 4, 512, 512]⟩
abbrev S4x512x512 : Shape := ⟨3, ![4, 512, 512]⟩
abbrev S1x1x4x512x512 : Shape := ⟨5, ![1, 1, 4, 512, 512]⟩
abbrev S8x8x4x512 : Shape := ⟨4, ![8, 8, 4, 512]⟩
abbrev S8x8x4x512x1 : Shape := ⟨5, ![8, 8, 4, 512, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x8x512x512, .f32⟩
  | .hbm, ⟨1, _⟩ => ⟨S8x8x4x512x512, .f32⟩
  | .hbm, ⟨2, _⟩ => ⟨S512, .i32⟩
  | .hbm, ⟨3, _⟩ => ⟨S1x512, .i32⟩
  | .hbm, ⟨4, _⟩ => ⟨S512x1, .i32⟩
  | .hbm, ⟨5, _⟩ => ⟨S512x512, .i32⟩
  | .hbm, ⟨6, _⟩ => ⟨S512x512, .i32⟩
  | .hbm, ⟨7, _⟩ => ⟨S512x512, .i1⟩
  | .hbm, ⟨8, _⟩ => ⟨S512x512, .f32⟩
  | .hbm, ⟨9, _⟩ => ⟨S1x512, .i32⟩
  | .hbm, ⟨10, _⟩ => ⟨S512x1, .i32⟩
  | .hbm, ⟨11, _⟩ => ⟨S512x512, .i32⟩
  | .hbm, ⟨12, _⟩ => ⟨S512x512, .i32⟩
  | .hbm, ⟨13, _⟩ => ⟨S512x512, .i1⟩
  | .hbm, ⟨14, _⟩ => ⟨S512x512, .f32⟩
  | .hbm, ⟨15, _⟩ => ⟨S512x512, .f32⟩
  | .hbm, ⟨16, _⟩ => ⟨S4x4x512x512, .f32⟩
  | .hbm, ⟨17, _⟩ => ⟨S_, .f32⟩
  | .hbm, ⟨18, _⟩ => ⟨S4x4x512x512, .f32⟩
  | .hbm, ⟨19, _⟩ => ⟨S4x4x512x512, .f32⟩
  | .hbm, ⟨20, _⟩ => ⟨S8x8x4x512x512, .f32⟩
  | .hbm, ⟨21, _⟩ => ⟨S_, .f32⟩
  | .hbm, ⟨22, _⟩ => ⟨S8x8x4x512x512, .f32⟩
  | .hbm, ⟨23, _⟩ => ⟨S8x8x4x512x512, .f32⟩
  | .hbm, ⟨24, _⟩ => ⟨S1x4x512x512, .f32⟩
  | .hbm, ⟨25, _⟩ => ⟨S4x512x512, .f32⟩
  | .hbm, ⟨26, _⟩ => ⟨S1x1x4x512x512, .f32⟩
  | .hbm, ⟨27, _⟩ => ⟨S8x8x4x512x512, .f32⟩
  | .hbm, ⟨28, _⟩ => ⟨S8x8x4x512x512, .f32⟩
  | .hbm, ⟨29, _⟩ => ⟨S_, .f32⟩
  | .hbm, ⟨30, _⟩ => ⟨S8x8x4x512, .f32⟩
  | .hbm, ⟨31, _⟩ => ⟨S_, .f32⟩
  | .hbm, ⟨32, _⟩ => ⟨S8x8x4x512, .f32⟩
  | .hbm, ⟨33, _⟩ => ⟨S8x8x4x512, .f32⟩
  | .hbm, ⟨34, _⟩ => ⟨S8x8x4x512x1, .f32⟩
  | .hbm, ⟨35, _⟩ => ⟨S8x8x4x512x512, .f32⟩
  | .hbm, ⟨36, _⟩ => ⟨S8x8x4x512x512, .f32⟩
  | .hbm, ⟨37, _⟩ => ⟨S8x8x4x512x512, .f32⟩
  | .hbm, ⟨38, _⟩ => ⟨S_, .f32⟩
  | .hbm, ⟨39, _⟩ => ⟨S8x8x4x512, .f32⟩
  | .hbm, ⟨40, _⟩ => ⟨S8x8x4x512x1, .f32⟩
  | .hbm, ⟨41, _⟩ => ⟨S8x8x4x512x512, .f32⟩
  | .hbm, ⟨42, _⟩ => ⟨S8x8x4x512x512, .f32⟩
  | .hbm, ⟨43, _⟩ => ⟨S8x8x4x512x512, .f32⟩
  | _, _ => ⟨S4x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S512_S512x1_0 : S512.BroadcastsInDim S512x1 (![0] : Fin 1 → Fin S512x1.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S512x512_S4x4x512x512_2_3 : S512x512.BroadcastsInDim S4x4x512x512 (![2, 3] : Fin 2 → Fin S4x4x512x512.rank)
  bcast_S_S4x4x512x512 : S_.BroadcastsInDim S4x4x512x512 (![] : Fin 0 → Fin S4x4x512x512.rank)
  bcast_S_S8x8x4x512x512 : S_.BroadcastsInDim S8x8x4x512x512 (![] : Fin 0 → Fin S8x8x4x512x512.rank)
  slices_S4x4x512x512_S1x4x512x512_0_0_0_0 : S4x4x512x512.Slices ![0, 0, 0, 0] S1x4x512x512
  shapeCasts_S1x4x512x512_S4x512x512 : S1x4x512x512.ShapeCasts S4x512x512
  bcast_S4x512x512_S1x1x4x512x512_2_3_4 : S4x512x512.BroadcastsInDim S1x1x4x512x512 (![2, 3, 4] : Fin 3 → Fin S1x1x4x512x512.rank)
  bcast_S1x1x4x512x512_S8x8x4x512x512_0_1_2_3_4 : S1x1x4x512x512.BroadcastsInDim S8x8x4x512x512 (![0, 1, 2, 3, 4] : Fin 5 → Fin S8x8x4x512x512.rank)
  reducesTo_S8x8x4x512x512_S8x8x4x512_d4 : S8x8x4x512x512.ReducesTo [4] S8x8x4x512
  h_S_ : 0 < S_.numel
  bcast_S_S8x8x4x512 : S_.BroadcastsInDim S8x8x4x512 (![] : Fin 0 → Fin S8x8x4x512.rank)
  bcast_S8x8x4x512_S8x8x4x512x1_0_1_2_3 : S8x8x4x512.BroadcastsInDim S8x8x4x512x1 (![0, 1, 2, 3] : Fin 4 → Fin S8x8x4x512x1.rank)
  bcast_S8x8x4x512x1_S8x8x4x512x512_0_1_2_3_4 : S8x8x4x512x1.BroadcastsInDim S8x8x4x512x512 (![0, 1, 2, 3, 4] : Fin 5 → Fin S8x8x4x512x512.rank)
  dot_S8x8x4x512x512_S8x8x4x512x512_S8x8x4x512x512_4_4_3_3_012_012_wf : DotDims.WF S8x8x4x512x512 S8x8x4x512x512 S8x8x4x512x512 [4] [4] [3] [3] [0, 1, 2] [0, 1, 2]
  dot_S8x8x4x512x512_S8x8x4x512x512_S8x8x4x512x512_4_3_3_4_012_012_wf : DotDims.WF S8x8x4x512x512 S8x8x4x512x512 S8x8x4x512x512 [4] [3] [3] [4] [0, 1, 2] [0, 1, 2]

variable [Facts₀]

def dot_S8x8x4x512x512_S8x8x4x512x512_S8x8x4x512x512_4_4_3_3_012_012 : DotDims S8x8x4x512x512 S8x8x4x512x512 S8x8x4x512x512 where
  lhsContracting := [4]
  rhsContracting := [4]
  lhsNonContracting := [3]
  rhsNonContracting := [3]
  lhsBatch := [0, 1, 2]
  rhsBatch := [0, 1, 2]
  wf := dot_S8x8x4x512x512_S8x8x4x512x512_S8x8x4x512x512_4_4_3_3_012_012_wf
def dot_S8x8x4x512x512_S8x8x4x512x512_S8x8x4x512x512_4_3_3_4_012_012 : DotDims S8x8x4x512x512 S8x8x4x512x512 S8x8x4x512x512 where
  lhsContracting := [4]
  rhsContracting := [3]
  lhsNonContracting := [3]
  rhsNonContracting := [4]
  lhsBatch := [0, 1, 2]
  rhsBatch := [0, 1, 2]
  wf := dot_S8x8x4x512x512_S8x8x4x512x512_S8x8x4x512x512_4_3_3_4_012_012_wf

class Facts : Prop extends Facts₀ where

variable [Facts]
-- ==== Proof.Spec.lean ====
/-
  Scaled dot-product attention of one head on a tied parameter, as functions on the extended reals.

  A head is a 512 × 512 matrix `X` (rows `s`, features `e`); queries, keys and values are all `X`.
  Two spellings of the logits occur.  One scales every entry of the query row by a constant `c`
  before the product with the key row; the other divides the unscaled product by a constant `D`
  and then adds a mask entry `M s t`.  Either way the logits of a row are shifted by the row's
  maximum, exponentiated, normalised by the row's sum (the softmax weights), and the weights
  are multiplied into the value rows.  Everything after the shifted logits is one function of
  them (`softW`, `attend`); the two shifted logits are compared in `Algebra.lean`.
-/
import Idealize.ShloMosaic.PureOps.Ideal
import Idealize.ShloMosaic.PureOps.Ideal.Laws

noncomputable section

namespace Cert.Attention

open Idealize.ShloMosaic

/-- A head: 512 rows of 512 features. -/
abbrev Head := Fin 512 → Fin 512 → EReal

/-- The largest entry of row `s`, as a fold of `max` from `-∞`. -/
def rowMax (A : Head) (s : Fin 512) : EReal :=
  (Finset.univ : Finset (Fin 512)).fold max ⊥ (A s)

/-- Softmax weights from already shifted logits `B`: `exp (B s t) / ∑ u, exp (B s u)`. -/
def softW (B : Head) : Head := fun s t =>
  Ideal.div (Ideal.exp (B s t)) (∑ u : Fin 512, Ideal.exp (B s u))

/-- The weights applied to the value rows: `∑ t, W s t · X t e`. -/
def attend (W X : Head) : Head := fun s e => ∑ t : Fin 512, W s t * X t e

/-- Logits with the scale `c` folded into the query row: `∑ e, (X s e · c) · X t e`. -/
def kerScore (c : EReal) (X : Head) : Head := fun s t => ∑ e : Fin 512, (X s e * c) * X t e

/-- Those logits less their row maximum. -/
def kerShift (c : EReal) (X : Head) : Head := fun s t => kerScore c X s t - rowMax (kerScore c X) s

/-- Logits as a quotient by `D` plus a mask entry: `(∑ e, X s e · X t e) / D + M s t`. -/
def refScore (D : EReal) (M X : Head) : Head := fun s t =>
  Ideal.div (∑ e : Fin 512, X s e * X t e) D + M s t

/-- Those logits less their row maximum (the maximum taken once more against `-∞`, which changes nothing). -/
def refShift (D : EReal) (M X : Head) : Head := fun s t =>
  refScore D M X s t - max ⊥ (rowMax (refScore D M X) s)

/-- The binary32 word of `-∞`. -/
theorem word_neg_inf : Ideal.ofBits .f32 0xFF800000#32 = ⊥ := by
  simp [Ideal.ofBits, Ideal.ieee]

/-- The binary32 word `0x41B504F3` (the nearest binary32 to `√512`) is `11863283 / 2¹⁹`. -/
theorem word_sqrt512 : Ideal.ofBits .f32 0x41B504F3#32 = ((11863283 / 524288 : ℝ) : EReal) := by
  simp [Ideal.ofBits, Ideal.ieee, -EReal.coe_mul]; norm_num

/-- The binary32 word `0xC61C4000` is `-10000`. -/
theorem word_mask : Ideal.ofBits .f32 0xC61C4000#32 = ((-10000 : ℝ) : EReal) := by
  simp [Ideal.ofBits, Ideal.ieee, -EReal.coe_mul]; norm_num

end Cert.Attention

end
-- ==== Proof.Algebra.lean ====
/-
  The two spellings of the shifted logits agree on real inputs.

  For a head `X` of real numbers put `a s t = ∑ e, X s e · X t e`.  Scaling the query row by `c`
  inside the product gives `c · a s t`; dividing the product by `D` gives `a s t / D`; these
  are equal when `c = 1 / D`.  Adding one and the same real `K` to every logit of a row raises the
  row's maximum by `K`, so the logits less their maximum are unchanged: softmax does not see a
  constant mask.  All of this needs the entries to be real: on the extended reals a factor does
  not move across a sum, and `(x + K) - (m + K) = x - m` fails at the infinities.
-/
import proofs.«163134_j39676907885408_2_alg».proof.Proof.Spec

noncomputable section

namespace Cert.Attention

open Idealize.ShloMosaic

/-- The coercion of a finite sum of reals is the sum of the coercions. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A fold of `max` from `-∞` commutes with adding a real constant to every term. -/
theorem fold_max_add_const {ι : Type*} (S : Finset ι) (f : ι → EReal) (K : ℝ) :
    S.fold max ⊥ (fun i => f i + (K : EReal)) = S.fold max ⊥ f + (K : EReal) := by
  have h := Finset.fold_hom (op := max) (op' := max) (s := S) (b := (⊥ : EReal)) (f := f)
    (m := fun x : EReal => x + (K : EReal)) (fun x y => (max_add_add_right x y (K : EReal)).symm)
  rw [EReal.bot_add] at h
  exact h

/-- The maximum of finitely many reals, over a nonempty index set, is a real. -/
theorem fold_max_coe_real (f : Fin 512 → ℝ) :
    ∃ mr : ℝ, (Finset.univ : Finset (Fin 512)).fold max ⊥ (fun i => (f i : EReal)) = (mr : EReal) := by
  have hbot : (Finset.univ : Finset (Fin 512)).fold max ⊥ (fun i => (f i : EReal)) ≠ ⊥ := by
    refine ne_of_gt ?_
    rw [Finset.lt_fold_max]
    exact Or.inr ⟨0, Finset.mem_univ _, EReal.bot_lt_coe _⟩
  have htop : (Finset.univ : Finset (Fin 512)).fold max ⊥ (fun i => (f i : EReal)) ≠ ⊤ := by
    refine ne_of_lt ?_
    rw [Finset.fold_max_lt]
    exact ⟨bot_lt_top, fun i _ => EReal.coe_lt_top _⟩
  exact ⟨_, (EReal.coe_toReal htop hbot).symm⟩

/-- On a head of reals, with the scale the reciprocal of the divisor and a constant real mask, the two
    shifted logits are one function. -/
theorem shift_eq (r : Fin 512 → Fin 512 → ℝ) :
    kerShift ((524288 / 11863283 : ℝ) : EReal) (fun s e => (r s e : EReal))
      = refShift ((11863283 / 524288 : ℝ) : EReal) (fun _ _ => ((-10000 : ℝ) : EReal)) (fun s e => (r s e : EReal)) := by
  -- the real logits
  let b : Fin 512 → Fin 512 → ℝ := fun s t => (524288 / 11863283 : ℝ) * ∑ e : Fin 512, r s e * r t e
  have hker : kerScore ((524288 / 11863283 : ℝ) : EReal) (fun s e => (r s e : EReal)) = fun s t => (b s t : EReal) := by
    funext s t
    show (∑ e : Fin 512, ((r s e : EReal) * ((524288 / 11863283 : ℝ) : EReal)) * (r t e : EReal)) = ((b s t : ℝ) : EReal)
    simp only [← EReal.coe_mul]
    rw [← coe_finset_sum]
    congr 1
    show (∑ e : Fin 512, r s e * (524288 / 11863283 : ℝ) * r t e) = (524288 / 11863283 : ℝ) * ∑ e : Fin 512, r s e * r t e
    rw [Finset.mul_sum]
    exact Finset.sum_congr rfl fun e _ => by ring
  have href : refScore ((11863283 / 524288 : ℝ) : EReal) (fun _ _ => ((-10000 : ℝ) : EReal)) (fun s e => (r s e : EReal))
      = fun s t => (b s t : EReal) + ((-10000 : ℝ) : EReal) := by
    funext s t
    show Ideal.div (∑ e : Fin 512, (r s e : EReal) * (r t e : EReal)) ((11863283 / 524288 : ℝ) : EReal) + ((-10000 : ℝ) : EReal) = _
    rw [Ideal.div_coe (by norm_num : (11863283 / 524288 : ℝ) ≠ 0)]
    simp only [← EReal.coe_mul]
    rw [← coe_finset_sum, ← EReal.coe_mul]
    congr 2
    show (∑ e : Fin 512, r s e * r t e) * (1 / (11863283 / 524288) : ℝ) = (524288 / 11863283 : ℝ) * ∑ e : Fin 512, r s e * r t e
    rw [mul_comm]
    congr 1
    norm_num
  funext s t
  unfold kerShift refShift
  rw [hker, href]
  obtain ⟨mr, hmr⟩ := fold_max_coe_real (b s)
  have hK : rowMax (fun s t => (b s t : EReal) + ((-10000 : ℝ) : EReal)) s = (mr : EReal) + ((-10000 : ℝ) : EReal) := by
    unfold rowMax
    rw [fold_max_add_const, hmr]
  have h0 : rowMax (fun s t => (b s t : EReal)) s = (mr : EReal) := hmr
  rw [hK, h0, max_eq_right bot_le]
  show (b s t : EReal) - (mr : EReal) = ((b s t : EReal) + ((-10000 : ℝ) : EReal)) - ((mr : EReal) + ((-10000 : ℝ) : EReal))
  rw [← EReal.coe_add, ← EReal.coe_add, ← EReal.coe_sub, ← EReal.coe_sub]
  congr 1
  ring

end Cert.Attention

end
-- ==== Proof.FiniteInputs.lean ====
/-
  From the precondition to "every entry of the parameter array is a real number".

  The precondition is the conjunction of two statements of the same form, one per argument: every
  entry `x` of the array satisfies `|x| < +∞`.  On the extended reals `|x|` is `max x (-x)`, which
  is `+∞` exactly at the two infinities; so an entry whose absolute value is below `+∞` is neither
  `-∞` nor `+∞`, that is, it is a real number.  Only the second conjunct (the parameter array) is
  used here.
-/
import proofs.«163134_j39676907885408_2_alg».proof.Pre_finite_inputs
import proofs.«163134_j39676907885408_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Attention.Finite

open Idealize.ShloMosaic

/-- The scalar shape has exactly one index. -/
instance subsingleton_scalar_idx : Subsingleton Cert.Pre_finite_inputs.S_.Idx :=
  ⟨fun a b => funext fun d => d.elim0⟩

/-- The binary32 word `0x7F800000` is `+∞`. -/
theorem word_pos_inf : Ideal.ofBits .f32 0x7F800000#32 = ⊤ := by
  simp [Ideal.ofBits, Ideal.ieee]

/-- An extended real whose absolute value `max x (-x)` is strictly below `+∞` is a real number:
    at `-∞` the negation is `+∞`, at `+∞` the entry itself is, and `+∞ < +∞` is false. -/
theorem real_of_abs_lt_top (x : EReal) (h : Ideal.cmp .olt (max x (-x)) ⊤ = 1#1) :
    ∃ r : ℝ, x = ((r : ℝ) : EReal) := by
  induction x using EReal.rec with
  | bot => simp [Ideal.cmp] at h
  | coe r => exact ⟨r, rfl⟩
  | top => simp [Ideal.cmp] at h

/-- The precondition makes every entry of the parameter array a real number. -/
theorem real_of_pre [Cert.Pre_finite_inputs.Facts]
    (x0 : FVec Ideal Cert.Pre_finite_inputs.S4x8x512x512 .f32)
    (x1 : FVec Ideal Cert.Pre_finite_inputs.S8x8x4x512x512 .f32)
    (h : Cert.Pre_finite_inputs.fn (F := Ideal) x0 x1 = fun _ => 1#1) :
    ∀ i, ∃ r : ℝ, x1 i = ((r : ℝ) : EReal) := by
  intro i
  have e := congrFun h ValueIdx.ix0
  dsimp only [Cert.Pre_finite_inputs.fn] at e
  obtain ⟨-, e2⟩ := IntOp.andi_eq_one.1 e
  have e3 := Host.reduce_andi_all _ _ _ _ _ e2 i
  have e4 : Ideal.cmp .olt (max (x1 i) (-(x1 i))) ⊤ = 1#1 := by
    rw [← word_pos_inf]; exact e3
  exact real_of_abs_lt_top (x1 i) e4

end Cert.Attention.Finite

end
-- ==== Proof.KernelHead.lean ====
/-
  The kernel body's two stored values for one head, read at an index, on the extended reals.

  A loaded block is a [1,512,512] array holding one head `X` (rows `s`, features `e`).  The body
  multiplies every entry of the block by the named scale `c`, contracts the scaled block with the
  block itself along the features (the logits `∑ e, (X s e · c) · X t e`), subtracts from each row
  of logits its maximum (a fold of `max` from `-∞`), exponentiates, divides each row by its sum
  (the softmax weights), and contracts the weights with the block along the rows of the block
  (`∑ t, W s t · X t e`).  The weights and that product are what it stores, each viewed as
  [1,512,512].  Read at an index these are `softW (kerShift c X)` and `attend (softW (kerShift c X)) X`
  of the specification.  The second head of a block goes through the same arithmetic, cut at the
  shifted logits instead of at the weights; the two cuts are the same terms.

  The steps, each a lemma over literal shapes and explicit coordinates: the block viewed [512,512]
  reads the head; a contraction over one axis read at (s, t) is a sum over `Fin 512`; a [512] vector
  viewed as a [512,1] column and broadcast along the rows reads, at (s, t), the vector at s; a
  reduction over the columns read at row s is the sum, or the fold of `max`, over that row.
-/
import proofs.«163134_j39676907885408_2_alg».proof.Proof.Spec
import proofs.«163134_j39676907885408_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.Attention.Kernel

open Idealize.ShloMosaic Idealize.ShloMosaic.ValueIdx Cert.KernelIdeal Cert.KernelIdeal.Gen Cert.Attention

/-! ## The scale and the head -/

/-- The named scale at the ideal values: the rational `524288 / 11863283`. -/
def scaleC : EReal := ((524288 / 11863283 : ℝ) : EReal)

/-- The named constant of the program denotes that rational, by the program's table of named constants. -/
theorem scale_named :
    Named.named (F := Ideal) Cert.KernelIdeal.κ "inv_sqrt_s" (φ := .f32) 0x3D3504F3#32 = scaleC :=
  IdealRules.named_const.ideal_named_scalar _ _ _ _ rfl

/-- The head a loaded [1,512,512] block holds. -/
def headOf (v : Vec Ideal S1x512x512 .f32) : Head := fun s e => v (ix3 (0 : Fin 1) s e)

/-- The block viewed as [512,512] reads the head. -/
theorem block_apply (v : Vec Ideal S1x512x512 .f32) (s e : Fin 512) :
    k0_pay4 (F := Ideal) v (ix2 s e) = headOf v s e :=
  shapeCast_1ab_ab_apply v _ s e

/-! ## The two contractions read at an index

The operand indices of a contraction at an output index `i` and a contraction index `q`, one
coordinate at a time: a kept axis carries the output's coordinate, the contracted axis carries `q`'s. -/

theorem score_lhs0 (i : S512x512.Idx) (q : dot_S512x512_S512x512_S512x512_1_1_0_0_n_n.contr.Idx) : (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide),
    dif_pos (show (0 : Fin S512x512.rank) ∈ dot_S512x512_S512x512_S512x512_1_1_0_0_n_n.lhsNonContracting by decide)]
  rfl
theorem score_lhs1 (i : S512x512.Idx) (q : dot_S512x512_S512x512_S512x512_1_1_0_0_n_n.contr.Idx) : (dot_S512x512_S512x512_S512x512_1_1_0_0_n_n.lhsIdx i q 1).val = (q ⟨0, by decide⟩).val :=
  dot_S512x512_S512x512_S512x512_1_1_0_0_n_n.lhsIdx_val_of_single rfl i q
theorem score_rhs0 (i : S512x512.Idx) (q : dot_S512x512_S512x512_S512x512_1_1_0_0_n_n.contr.Idx) : (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide),
    dif_pos (show (0 : Fin S512x512.rank) ∈ dot_S512x512_S512x512_S512x512_1_1_0_0_n_n.rhsNonContracting by decide)]
  rfl
theorem score_rhs1 (i : S512x512.Idx) (q : dot_S512x512_S512x512_S512x512_1_1_0_0_n_n.contr.Idx) : (dot_S512x512_S512x512_S512x512_1_1_0_0_n_n.rhsIdx i q 1).val = (q ⟨0, by decide⟩).val :=
  dot_S512x512_S512x512_S512x512_1_1_0_0_n_n.rhsIdx_val_of_single rfl i q

theorem value_lhs0 (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem value_lhs1 (i : S512x512.Idx) (q : dot_S512x512_S512x512_S512x512_1_0_0_1_n_n.contr.Idx) : (dot_S512x512_S512x512_S512x512_1_0_0_1_n_n.lhsIdx i q 1).val = (q ⟨0, by decide⟩).val :=
  dot_S512x512_S512x512_S512x512_1_0_0_1_n_n.lhsIdx_val_of_single rfl i q
theorem value_rhs1 (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl
theorem value_rhs0 (i : S512x512.Idx) (q : dot_S512x512_S512x512_S512x512_1_0_0_1_n_n.contr.Idx) : (dot_S512x512_S512x512_S512x512_1_0_0_1_n_n.rhsIdx i q 0).val = (q ⟨0, by decide⟩).val :=
  dot_S512x512_S512x512_S512x512_1_0_0_1_n_n.rhsIdx_val_of_single rfl i q

/-- Contracting the features of both operands: at (s, t), `∑ e, A s e · B t e`. -/
theorem scoreDot_apply (A B : FVec Ideal S512x512 .bf16) (s t : Fin 512) :
    matmul dot_S512x512_S512x512_S512x512_1_1_0_0_n_n none A B (constant (F := Ideal) S512x512 .f32 0x00000000#32) (ix2 s t)
      = ∑ e : Fin 512, A (ix2 s e) * B (ix2 t e) := by
  simp only [matmul]
  rw [Ideal.matmul_constant_zero_apply,
    ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 s t) ((contrEquiv1 dot_S512x512_S512x512_S512x512_1_1_0_0_n_n 512 rfl rfl).symm k) = ix2 s k :=
    funext fun a => Fin.ext (by
      match a with
      | ⟨0, _⟩ => exact score_lhs0 _ _
      | ⟨1, _⟩ => exact (score_lhs1 _ _).trans hk)
  have er : dot_S512x512_S512x512_S512x512_1_1_0_0_n_n.rhsIdx (ix2 s t) ((contrEquiv1 dot_S512x512_S512x512_S512x512_1_1_0_0_n_n 512 rfl rfl).symm k) = ix2 t k :=
    funext fun a => Fin.ext (by
      match a with
      | ⟨0, _⟩ => exact score_rhs0 _ _
      | ⟨1, _⟩ => exact (score_rhs1 _ _).trans hk)
  rw [el, er]

/-- Contracting the columns of the left operand with the rows of the right: at (s, e), `∑ t, A s t · B t e`. -/
theorem valueDot_apply (A B : FVec Ideal S512x512 .bf16) (s e : Fin 512) :
    matmul dot_S512x512_S512x512_S512x512_1_0_0_1_n_n none A B (constant (F := Ideal) S512x512 .f32 0x00000000#32) (ix2 s e)
      = ∑ t : Fin 512, A (ix2 s t) * B (ix2 t e) := by
  simp only [matmul]
  rw [Ideal.matmul_constant_zero_apply,
    ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 s e) ((contrEquiv1 dot_S512x512_S512x512_S512x512_1_0_0_1_n_n 512 rfl rfl).symm k) = ix2 s k :=
    funext fun a => Fin.ext (by
      match a with
      | ⟨0, _⟩ => exact value_lhs0 _ _
      | ⟨1, _⟩ => exact (value_lhs1 _ _).trans hk)
  have er : dot_S512x512_S512x512_S512x512_1_0_0_1_n_n.rhsIdx (ix2 s e) ((contrEquiv1 dot_S512x512_S512x512_S512x512_1_0_0_1_n_n 512 rfl rfl).symm k) = ix2 k e :=
    funext fun a => Fin.ext (by
      match a with
      | ⟨0, _⟩ => exact (value_rhs0 _ _).trans hk
      | ⟨1, _⟩ => exact value_rhs1 _ _)
  rw [el, er]

/-! ## The keepdims column and the two row reductions -/

/-- A [512] vector viewed as a [512,1] column and broadcast along the rows to [512,512]. -/
def colOf (c : FVec Ideal S512 .f32) : FVec Ideal S512x512 .f32 :=
  broadcastTo S512x512 (shapeCast S512x1 c shapeCasts_S512_S512x1) broadcasts_S512x1_S512x512

/-- It reads, at (s, t), the vector at s. -/
theorem colOf_apply (c : FVec Ideal S512 .f32) (s t : Fin 512) : colOf c (ix2 s t) = c (ix1 s) := by
  unfold colOf
  refine (broadcastTo_apply _ broadcasts_S512x1_S512x512 (ix2 s t) (ix2 s (0 : Fin 1)) (fun a => ?_)).trans ?_
  · match a with
    | ⟨0, _⟩ => rfl
    | ⟨1, _⟩ => rfl
  · exact shapeCast_apply c shapeCasts_S512_S512x1 (ix2 s (0 : Fin 1)) (ix1 s) (by
      rw [Shape.rowMajor_val_one, Shape.rowMajor_val_two]
      show s.val = s.val * 1 + 0
      omega)

/-- The index a reduction over the columns inserts: row s, column k. -/
theorem lift_row (s k : Fin 512) : reduces_S512x512_S512.lift (ix1 s) k = ix2 s k :=
  funext fun a => Fin.ext (by
    match a with
    | ⟨0, _⟩ => rfl
    | ⟨1, _⟩ => rfl)

/-- The sums of the rows of a [512,512] array. -/
def rowSumV (X : FVec Ideal S512x512 .f32) : FVec Ideal S512 .f32 :=
  multiReduction (F := Ideal) .add [1] S512 X 0x00000000#32 reduces_S512x512_S512 (.inl rfl) rfl

theorem rowSumV_apply (X : FVec Ideal S512x512 .f32) (s : Fin 512) :
    rowSumV X (ix1 s) = ∑ u : Fin 512, X (ix2 s u) := by
  unfold rowSumV
  refine (Ideal.multiReduction_add_single X 0x00000000#32 reduces_S512x512_S512 (.inl rfl) rfl (ix1 s)).trans ?_
  exact Finset.sum_congr rfl fun u _ => congrArg X (lift_row s u)

/-- The maxima of the rows of a [512,512] array, folded from the word of -∞. -/
def rowMaxV (X : FVec Ideal S512x512 .f32) : FVec Ideal S512 .f32 :=
  multiReduction (F := Ideal) .maximumf [1] S512 X 0xFF800000#32 reduces_S512x512_S512 (.inl rfl) rfl

theorem rowMaxV_apply (X : FVec Ideal S512x512 .f32) (s : Fin 512) :
    rowMaxV X (ix1 s) = rowMax (fun a b => X (ix2 a b)) s := by
  unfold rowMaxV
  refine (Ideal.multiReduction_maximumf_single X 0xFF800000#32 reduces_S512x512_S512 (.inl rfl) rfl (ix1 s)).trans ?_
  unfold rowMax
  rw [show (FloatOps.ofBits (F := Ideal) .f32 0xFF800000#32 : EReal) = ⊥ from word_neg_inf]
  exact congrArg (fun f : Fin 512 → EReal => (Finset.univ : Finset (Fin 512)).fold max ⊥ f)
    (funext fun u => congrArg X (lift_row s u))

/-! ## The payloads -/

/-- The exponential of an array is taken entry by entry. -/
theorem expv_apply (x : FVec Ideal S512x512 .f32) (i : S512x512.Idx) : exp x i = Ideal.exp (x i) := rfl

/-- The kernel's logits: the block scaled by the named constant, contracted with the block along the features. -/
def scoreV (v : Vec Ideal S1x512x512 .f32) : FVec Ideal S512x512 .f32 :=
  matmul dot_S512x512_S512x512_S512x512_1_1_0_0_n_n none
    (truncf .bf16 (mulf (k0_pay4 v) (broadcast S512x512 (Named.named κ "inv_sqrt_s" 0x3D3504F3#32))) bitsLt_bf16_f32)
    (k0_pay5 v) (constant S512x512 .f32 0x00000000#32)

/-- They are the specification's logits with the scale folded into the query row. -/
theorem scoreV_apply (v : Vec Ideal S1x512x512 .f32) (s t : Fin 512) :
    scoreV v (ix2 s t) = kerScore scaleC (headOf v) s t := by
  unfold scoreV
  rw [scoreDot_apply]
  unfold kerScore k0_pay5
  refine Finset.sum_congr rfl fun e _ => ?_
  rw [truncf_apply, truncf_apply, mulf_apply, broadcast_apply, block_apply, block_apply, scale_named]

/-- The kernel's shifted logits: the logits less the column of their row maxima. -/
def shiftV (v : Vec Ideal S1x512x512 .f32) : FVec Ideal S512x512 .f32 :=
  subf (scoreV v) (colOf (rowMaxV (scoreV v)))

/-- They are the specification's shifted logits. -/
theorem shiftV_apply (v : Vec Ideal S1x512x512 .f32) (s t : Fin 512) :
    shiftV v (ix2 s t) = kerShift scaleC (headOf v) s t := by
  unfold shiftV kerShift
  rw [subf_apply, colOf_apply, rowMaxV_apply, scoreV_apply]
  exact congrArg (fun A : Head => kerScore scaleC (headOf v) s t - rowMax A s)
    (funext fun a => funext fun b => scoreV_apply v a b)

/-- The second head's carried value is the shifted logits of its block. -/
theorem pay11_eq (v : Vec Ideal S1x512x512 .f32) : k0_pay11 (F := Ideal) v = shiftV v := rfl

/-- The weights: the exponentials of the shifted logits over the column of their row sums. -/
theorem pay6_eq (v : Vec Ideal S1x512x512 .f32) :
    k0_pay6 (F := Ideal) v = divf (exp (shiftV v)) (colOf (rowSumV (exp (shiftV v)))) := rfl

/-- The weights as a [512,512] array, read at (s, t): the softmax weights of the shifted logits. -/
theorem weights2_apply (v : Vec Ideal S1x512x512 .f32) (s t : Fin 512) :
    k0_pay6 (F := Ideal) v (ix2 s t) = softW (kerShift scaleC (headOf v)) s t := by
  rw [pay6_eq, divf_apply, colOf_apply, rowSumV_apply]
  unfold softW
  simp only [expv_apply, shiftV_apply]

/-- The stored attention weights, read at (0, s, t). -/
theorem weights_apply (v : Vec Ideal S1x512x512 .f32) (s t : Fin 512) :
    k0_pay7 (F := Ideal) v (ix3 (0 : Fin 1) s t) = softW (kerShift scaleC (headOf v)) s t := by
  unfold k0_pay7
  exact (shapeCast_ab_1ab_apply (k0_pay6 (F := Ideal) v) _ (0 : Fin 1) s t).trans (weights2_apply v s t)

/-- The stored output, read at (0, s, e): the weights applied to the value rows. -/
theorem output_apply (v : Vec Ideal S1x512x512 .f32) (s e : Fin 512) :
    k0_pay8 (F := Ideal) v (ix3 (0 : Fin 1) s e)
      = attend (softW (kerShift scaleC (headOf v))) (headOf v) s e := by
  unfold k0_pay8
  refine (shapeCast_ab_1ab_apply _ _ (0 : Fin 1) s e).trans ?_
  rw [valueDot_apply]
  unfold attend k0_pay5
  refine Finset.sum_congr rfl fun t _ => ?_
  rw [truncf_apply, truncf_apply, weights2_apply, block_apply]

/-- The second head's stored weights are the first head's function of its block: the same terms, cut at the
    shifted logits. -/
theorem weights_second (v : Vec Ideal S1x512x512 .f32) : k0_pay2 (F := Ideal) (k0_pay11 v) = k0_pay7 v := rfl

/-- Likewise the second head's stored output. -/
theorem output_second (v : Vec Ideal S1x512x512 .f32) :
    k0_pay3 (F := Ideal) (k0_pay10 v) (k0_pay11 v) = k0_pay8 v := rfl

end Cert.Attention.Kernel

end
-- ==== Proof.KernelArrays.lean ====
/-
  The attention kernel's two result arrays, as whole-array functions of the parameter array.

  The parameter array q : [8,8,4,512,512] is flattened to 256 heads of [512,512]; grid point t
  handles heads 2t and 2t+1 (a block [2,512,512] of each of the three flat arrays).  For each head
  of its block the body stores the softmax weights and the weighted values of that head alone, so
  what a point writes back is the restriction to its block of ONE function of the flat array
  (`flatW`, `flatO`): row `n` of the result depends only on head `n`.  The 128 blocks tile the
  256 heads, so after the run each result array is that function; the host then reshapes both back
  to [8,8,4,512,512], and builds the constant mask by operations that read no input at all.
-/
import proofs.«163134_j39676907885408_2_alg».proof.Proof.Gen.KernelIdeal.Frame
import proofs.«163134_j39676907885408_2_alg».proof.Proof.Spec
import proofs.«163134_j39676907885408_2_alg».proof.Proof.KernelHead
import Idealize.ShloMosaic.Lib.Pipeline.Value
import Idealize.ShloMosaic.Lib.StableHlo.Run
import Idealize.ShloMosaic.Lib.ValueIdx

set_option maxRecDepth 16384

noncomputable section

namespace Cert.Attention.KernelRun

open Cert.KernelIdeal Cert.KernelIdeal.Gen Idealize.ShloMosaic Idealize.ShloMosaic.TcCoe Idealize.SL.Sem Idealize.ShloMosaic.StableHlo
open Idealize.ShloMosaic.ValueIdx Cert.Attention Cert.Attention.Kernel
open Idealize.ShloMosaic.Pipeline (Dat)

variable (m : (ℓ : Loc nD τ sig) → Buf (Elt Ideal) ℓ) (ρ : Dev nD → PrngReg)

/-! ## One block -/

/-- Two stores through the two unit slabs of a [2,512,512] buffer: slab 1 holds the later store's value, slab 0 the
    earlier one's. -/
theorem canon_pair (p1 p0 : Vec Ideal S1x512x512 .f32) (y : S2x512x512.Idx) :
    View.canon [(⟨r0_1, p1⟩ : View.Piece (Elt Ideal) S2x512x512 .f32), ⟨r0_0, p0⟩] y
      = if (y 0).val = 1 then p1 (ix3 (0 : Fin 1) (y 1) (y 2)) else p0 (ix3 (0 : Fin 1) (y 1) (y 2)) := by
  refine View.canon_apply_of_pieces (Val := Elt Ideal)
    (fun y : S2x512x512.Idx => if (y 0).val = 1 then p1 (ix3 (0 : Fin 1) (y 1) (y 2)) else p0 (ix3 (0 : Fin 1) (y 1) (y 2))) _ ?_ y (cover0_2 p1 p0 y)
  intro p hp x
  rcases List.mem_cons.mp hp with rfl | hp
  · have h0 : ((r0_1.emb x) 0).val = 1 := by
      have hx : (x 0).val < 1 := (x 0).isLt
      show 1 + 1 * (x 0).val = 1; omega
    have hx : x = ix3 (0 : Fin 1) (r0_1.emb x 1) (r0_1.emb x 2) := by
      funext a; apply Fin.ext
      match a with
      | ⟨0, _⟩ => have hx : (x 0).val < 1 := (x 0).isLt; show (x 0).val = 0; omega
      | ⟨1, _⟩ => show (x 1).val = 0 + 1 * (x 1).val; omega
      | ⟨2, _⟩ => show (x 2).val = 0 + 1 * (x 2).val; omega
    show p1 x = if ((r0_1.emb x) 0).val = 1 then _ else _
    rw [if_pos h0]; exact congrArg p1 hx
  · rcases List.mem_cons.mp hp with rfl | hp
    · have h0 : ((r0_0.emb x) 0).val ≠ 1 := by
        have hx : (x 0).val < 1 := (x 0).isLt
        show 0 + 1 * (x 0).val ≠ 1; omega
      have hx : x = ix3 (0 : Fin 1) (r0_0.emb x 1) (r0_0.emb x 2) := by
        funext a; apply Fin.ext
        match a with
        | ⟨0, _⟩ => have hx : (x 0).val < 1 := (x 0).isLt; show (x 0).val = 0; omega
        | ⟨1, _⟩ => show (x 1).val = 0 + 1 * (x 1).val; omega
        | ⟨2, _⟩ => show (x 2).val = 0 + 1 * (x 2).val; omega
      show p0 x = if ((r0_0.emb x) 0).val = 1 then _ else _
      rw [if_neg h0]; exact congrArg p0 hx
    · exact absurd hp List.not_mem_nil

/-- Head `h` of a block of two heads. -/
def blockHead (x0 : Vec Ideal S2x512x512 .f32) (h : Fin 2) : Head := fun s e => x0 (ix3 h s e)

/-- The head a load through slab 1 holds is head 1 of the block; through slab 0, head 0. -/
theorem headOf_ld_one (x0 : Vec Ideal S2x512x512 .f32) : headOf (View.ld x0 r0_1) = blockHead x0 1 := by
  funext s e
  show x0 (r0_1.emb (ix3 (0 : Fin 1) s e)) = x0 (ix3 (1 : Fin 2) s e)
  refine congrArg x0 (funext fun a => Fin.ext ?_)
  match a with
  | ⟨0, _⟩ => rfl
  | ⟨1, _⟩ => show 0 + 1 * s.val = s.val; omega
  | ⟨2, _⟩ => show 0 + 1 * e.val = e.val; omega
theorem headOf_ld_zero (x0 : Vec Ideal S2x512x512 .f32) : headOf (View.ld x0 r0_0) = blockHead x0 0 := by
  funext s e
  show x0 (r0_0.emb (ix3 (0 : Fin 1) s e)) = x0 (ix3 (0 : Fin 2) s e)
  refine congrArg x0 (funext fun a => Fin.ext ?_)
  match a with
  | ⟨0, _⟩ => rfl
  | ⟨1, _⟩ => show 0 + 1 * s.val = s.val; omega
  | ⟨2, _⟩ => show 0 + 1 * e.val = e.val; omega

/-- The same at explicit coordinates. -/
theorem canon_pair_at (p1 p0 : Vec Ideal S1x512x512 .f32) (h : Fin 2) (s t : Fin 512) :
    View.canon [(⟨r0_1, p1⟩ : View.Piece (Elt Ideal) S2x512x512 .f32), ⟨r0_0, p0⟩] (ix3 h s t)
      = if h.val = 1 then p1 (ix3 (0 : Fin 1) s t) else p0 (ix3 (0 : Fin 1) s t) :=
  canon_pair p1 p0 (ix3 h s t)

/-- What the body leaves in the weights buffer, entry by entry: the softmax weights of the entry's own head. -/
theorem weights_block (x0 : Vec Ideal S2x512x512 .f32) (h : Fin 2) (s t : Fin 512) :
    out0_2 x0 (ix3 h s t) = softW (kerShift scaleC (blockHead x0 h)) s t := by
  unfold out0_2
  rw [canon_pair_at]
  have hy : h.val < 2 := h.isLt
  by_cases h1 : h.val = 1
  · rw [if_pos h1, weights_second, weights_apply, headOf_ld_one]
    have e : h = (1 : Fin 2) := Fin.ext h1
    rw [e]
  · rw [if_neg h1, weights_apply, headOf_ld_zero]
    have e : h = (0 : Fin 2) := Fin.ext (by show h.val = 0; omega)
    rw [e]

/-- What the body leaves in the output buffer, entry by entry: the weighted values of the entry's own head. -/
theorem output_block (x0 : Vec Ideal S2x512x512 .f32) (h : Fin 2) (s e : Fin 512) :
    out0_1 x0 (ix3 h s e) = attend (softW (kerShift scaleC (blockHead x0 h))) (blockHead x0 h) s e := by
  unfold out0_1
  rw [canon_pair_at]
  have hy : h.val < 2 := h.isLt
  by_cases h1 : h.val = 1
  · rw [if_pos h1, output_second, output_apply, headOf_ld_one]
    have e' : h = (1 : Fin 2) := Fin.ext h1
    rw [e']
  · rw [if_neg h1, output_apply, headOf_ld_zero]
    have e' : h = (0 : Fin 2) := Fin.ext (by show h.val = 0; omega)
    rw [e']

/-! ## The flat arrays -/

/-- Head `n` of a flat array of 256 heads. -/
def flatHead (Q0 : S256x512x512.Idx → EReal) (n : Fin 256) : Head := fun s e => Q0 (ix3 n s e)

/-- The softmax weights of every head of the flat array. -/
def flatW (Q0 : S256x512x512.Idx → EReal) : S256x512x512.Idx → EReal := fun i =>
  softW (kerShift scaleC (flatHead Q0 (i 0))) (i 1) (i 2)

/-- The weighted values of every head of the flat array. -/
def flatO (Q0 : S256x512x512.Idx → EReal) : S256x512x512.Idx → EReal := fun i =>
  attend (softW (kerShift scaleC (flatHead Q0 (i 0)))) (flatHead Q0 (i 0)) (i 1) (i 2)

/-- A block entry `y` of the weights buffer is the flat function at the array index `i` it lands on, when the
    block `x0` of the input is the flat array's block at the same offset `n0` (in blocks of two heads). -/
theorem weights_block_at (x0 : Vec Ideal S2x512x512 .f32) (Q0 : S256x512x512.Idx → EReal) (n0 : Nat)
    (y : S2x512x512.Idx) (i : S256x512x512.Idx)
    (hi0 : (i 0).val = n0 * 2 + (y 0).val) (hi1 : (i 1).val = (y 1).val) (hi2 : (i 2).val = (y 2).val)
    (hx : ∀ (h : Fin 2) (s e : Fin 512) (j : S256x512x512.Idx), (j 0).val = n0 * 2 + h.val → (j 1).val = s.val →
      (j 2).val = e.val → x0 (ix3 h s e) = Q0 j) :
    out0_2 x0 y = flatW Q0 i := by
  obtain ⟨h, s, t, rfl⟩ : ∃ (h : Fin 2) (s t : Fin 512), y = ix3 h s t := ⟨y 0, y 1, y 2, eq_ix3 y⟩
  rw [weights_block]
  have eh : blockHead x0 h = flatHead Q0 (i 0) :=
    funext fun s' => funext fun e' => hx h s' e' (ix3 (i 0) s' e') hi0 rfl rfl
  have e1 : s = (i 1 : Fin 512) := Fin.ext hi1.symm
  have e2 : t = (i 2 : Fin 512) := Fin.ext hi2.symm
  rw [eh]
  exact congr (congrArg (softW (kerShift scaleC (flatHead Q0 (i 0)))) e1) e2

theorem output_block_at (x0 : Vec Ideal S2x512x512 .f32) (Q0 : S256x512x512.Idx → EReal) (n0 : Nat)
    (y : S2x512x512.Idx) (i : S256x512x512.Idx)
    (hi0 : (i 0).val = n0 * 2 + (y 0).val) (hi1 : (i 1).val = (y 1).val) (hi2 : (i 2).val = (y 2).val)
    (hx : ∀ (h : Fin 2) (s e : Fin 512) (j : S256x512x512.Idx), (j 0).val = n0 * 2 + h.val → (j 1).val = s.val →
      (j 2).val = e.val → x0 (ix3 h s e) = Q0 j) :
    out0_1 x0 y = flatO Q0 i := by
  obtain ⟨h, s, t, rfl⟩ : ∃ (h : Fin 2) (s t : Fin 512), y = ix3 h s t := ⟨y 0, y 1, y 2, eq_ix3 y⟩
  rw [output_block]
  have eh : blockHead x0 h = flatHead Q0 (i 0) :=
    funext fun s' => funext fun e' => hx h s' e' (ix3 (i 0) s' e') hi0 rfl rfl
  have e1 : s = (i 1 : Fin 512) := Fin.ext hi1.symm
  have e2 : t = (i 2 : Fin 512) := Fin.ext hi2.symm
  rw [eh]
  exact congr (congrArg (attend (softW (kerShift scaleC (flatHead Q0 (i 0)))) (flatHead Q0 (i 0))) e1) e2

/-! ## From blocks to arrays -/

/-- The three index maps, decided over the 128 grid points: point `t` is at block `t` on the head axis and block 0
    on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The input block at point `t` is the flat array's block at offset `t`. -/
theorem input_block (c : Dev nD) (t : Fin cfg0.N) (h : Fin 2) (s e : Fin 512) (j : S256x512x512.Idx)
    (hj0 : (j 0).val = t.val * 2 + h.val) (hj1 : (j 1).val = s.val) (hj2 : (j 2).val = e.val) :
    iblk m c 0 t (ix3 h s e) = V m c main_v0 j := by
  obtain ⟨a0, a1, a2, -, -, -, -, -, -⟩ := idx_facts t
  show V m c main_v0 (((cfg0.win 0).blk t).view.emb (ix3 h s e)) = V m c main_v0 j
  refine congrArg _ (funext fun a => Fin.ext ?_)
  match a with
  | ⟨0, _⟩ => show win0_0.index t (0 : Fin 3) * 2 + 1 * h.val = (j 0).val; omega
  | ⟨1, _⟩ => show win0_0.index t (1 : Fin 3) * 512 + 1 * s.val = (j 1).val; omega
  | ⟨2, _⟩ => show win0_0.index t (2 : Fin 3) * 512 + 1 * e.val = (j 2).val; omega

/-- What point `t` writes back to the weights array is block `t` of `flatW`. -/
theorem flushedW_eq (c : Dev nD) (t : Fin cfg0.N) :
    (dats m 0 c).flushed 2 t = ((cfg0.win 2).blk t).view.read (Elt Ideal) (flatW (V m c main_v0)) := by
  show (cfg0.win 2).cut (grid0.coords t) ((dats m 0 c).after 2 t) = _
  rw [after0_2]
  obtain ⟨-, -, -, -, -, -, a0, a1, a2⟩ := idx_facts t
  funext y
  show out0_2 (iblk m c 0 t) y = flatW (V m c main_v0) (((cfg0.win 2).blk t).view.emb y)
  refine weights_block_at (iblk m c 0 t) (V m c main_v0) t.val y _ ?_ ?_ ?_ (fun h s e j => input_block m c t h s e j)
  · show win0_2.index t (0 : Fin 3) * 2 + 1 * (y 0).val = t.val * 2 + (y 0).val; omega
  · show win0_2.index t (1 : Fin 3) * 512 + 1 * (y 1).val = (y 1).val; omega
  · show win0_2.index t (2 : Fin 3) * 512 + 1 * (y 2).val = (y 2).val; omega

/-- What point `t` writes back to the output array is block `t` of `flatO`. -/
theorem flushedO_eq (c : Dev nD) (t : Fin cfg0.N) :
    (dats m 0 c).flushed 1 t = ((cfg0.win 1).blk t).view.read (Elt Ideal) (flatO (V m c main_v0)) := by
  show (cfg0.win 1).cut (grid0.coords t) ((dats m 0 c).after 1 t) = _
  rw [after0_1]
  obtain ⟨-, -, -, a0, a1, a2, -, -, -⟩ := idx_facts t
  funext y
  show out0_1 (iblk m c 0 t) y = flatO (V m c main_v0) (((cfg0.win 1).blk t).view.emb y)
  refine output_block_at (iblk m c 0 t) (V m c main_v0) t.val y _ ?_ ?_ ?_ (fun h s e j => input_block m c t h s e j)
  · show win0_1.index t (0 : Fin 3) * 2 + 1 * (y 0).val = t.val * 2 + (y 0).val; omega
  · show win0_1.index t (1 : Fin 3) * 512 + 1 * (y 1).val = (y 1).val; omega
  · show win0_1.index t (2 : Fin 3) * 512 + 1 * (y 2).val = (y 2).val; omega

/-- An index of the weights array is in point `t`'s block iff each coordinate is in the block's range. -/
theorem mem_blkW (t : Fin cfg0.N) (i : S256x512x512.Idx) :
    i ∈ ((cfg0.win 2).blk t).view.set ↔ ∀ a : Fin 3, win0_2.index t a * S2x512x512.size a ≤ (i a).val ∧ (i a).val < win0_2.index t a * S2x512x512.size a + S2x512x512.size a := by
  show i ∈ ((View.whole main_v1_1).slice (win0_2.rect t)).set ↔ _
  rw [View.set_slice_whole, Rect.mem_set_unit]
  exact Iff.rfl
theorem mem_blkO (t : Fin cfg0.N) (i : S256x512x512.Idx) :
    i ∈ ((cfg0.win 1).blk t).view.set ↔ ∀ a : Fin 3, win0_1.index t a * S2x512x512.size a ≤ (i a).val ∧ (i a).val < win0_1.index t a * S2x512x512.size a + S2x512x512.size a := by
  show i ∈ ((View.whole main_v1_0).slice (win0_1.rect t)).set ↔ _
  rw [View.set_slice_whole, Rect.mem_set_unit]
  exact Iff.rfl

/-- Head `n` is in the block of point `n / 2`: the blocks tile the array. -/
theorem coverW (i : S256x512x512.Idx) :
    ∃ t : Fin cfg0.N, (cfg0.win 2).flush t = true ∧ i ∈ ((cfg0.win 2).blk t).view.set := by
  have hi0 : (i 0).val < 256 := (i 0).isLt
  have hi1 : (i 1).val < 512 := (i 1).isLt
  have hi2 : (i 2).val < 512 := (i 2).isLt
  have hN : (i 0).val / 2 < cfg0.N := by rw [show cfg0.N = 128 from N_0]; omega
  refine ⟨⟨(i 0).val / 2, hN⟩, flush0_2 _, ?_⟩
  obtain ⟨-, -, -, -, -, -, a0, a1, a2⟩ := idx_facts ⟨(i 0).val / 2, hN⟩
  rw [mem_blkW]
  intro a
  match a with
  | ⟨0, _⟩ => show win0_2.index ⟨(i 0).val / 2, hN⟩ (0 : Fin 3) * 2 ≤ (i 0).val ∧ (i 0).val < win0_2.index ⟨(i 0).val / 2, hN⟩ (0 : Fin 3) * 2 + 2; rw [a0]; show (i 0).val / 2 * 2 ≤ (i 0).val ∧ (i 0).val < (i 0).val / 2 * 2 + 2; omega
  | ⟨1, _⟩ => show win0_2.index ⟨(i 0).val / 2, hN⟩ (1 : Fin 3) * 512 ≤ (i 1).val ∧ (i 1).val < win0_2.index ⟨(i 0).val / 2, hN⟩ (1 : Fin 3) * 512 + 512; omega
  | ⟨2, _⟩ => show win0_2.index ⟨(i 0).val / 2, hN⟩ (2 : Fin 3) * 512 ≤ (i 2).val ∧ (i 2).val < win0_2.index ⟨(i 0).val / 2, hN⟩ (2 : Fin 3) * 512 + 512; omega
theorem coverO (i : S256x512x512.Idx) :
    ∃ t : Fin cfg0.N, (cfg0.win 1).flush t = true ∧ i ∈ ((cfg0.win 1).blk t).view.set := by
  have hi0 : (i 0).val < 256 := (i 0).isLt
  have hi1 : (i 1).val < 512 := (i 1).isLt
  have hi2 : (i 2).val < 512 := (i 2).isLt
  have hN : (i 0).val / 2 < cfg0.N := by rw [show cfg0.N = 128 from N_0]; omega
  refine ⟨⟨(i 0).val / 2, hN⟩, flush0_1 _, ?_⟩
  obtain ⟨-, -, -, a0, a1, a2, -, -, -⟩ := idx_facts ⟨(i 0).val / 2, hN⟩
  rw [mem_blkO]
  intro a
  match a with
  | ⟨0, _⟩ => show win0_1.index ⟨(i 0).val / 2, hN⟩ (0 : Fin 3) * 2 ≤ (i 0).val ∧ (i 0).val < win0_1.index ⟨(i 0).val / 2, hN⟩ (0 : Fin 3) * 2 + 2; rw [a0]; show (i 0).val / 2 * 2 ≤ (i 0).val ∧ (i 0).val < (i 0).val / 2 * 2 + 2; omega
  | ⟨1, _⟩ => show win0_1.index ⟨(i 0).val / 2, hN⟩ (1 : Fin 3) * 512 ≤ (i 1).val ∧ (i 1).val < win0_1.index ⟨(i 0).val / 2, hN⟩ (1 : Fin 3) * 512 + 512; omega
  | ⟨2, _⟩ => show win0_1.index ⟨(i 0).val / 2, hN⟩ (2 : Fin 3) * 512 ≤ (i 2).val ∧ (i 2).val < win0_1.index ⟨(i 0).val / 2, hN⟩ (2 : Fin 3) * 512 + 512; omega

/-- After the run the weights array is `flatW` of the flat parameter array, and the output array `flatO` of it. -/
theorem finalW (c : Dev nD) : (dats m 0 c).arrAt 2 cfg0.N = flatW (V m c main_v0) :=
  (dats m 0 c).arrAt_eq_of_cover 2 (flatW (V m c main_v0)) (fun t _ => flushedW_eq m c t) coverW
theorem finalO (c : Dev nD) : (dats m 0 c).arrAt 1 cfg0.N = flatO (V m c main_v0) :=
  (dats m 0 c).arrAt_eq_of_cover 1 (flatO (V m c main_v0)) (fun t _ => flushedO_eq m c t) coverO

/-! ## The host operations around the region -/

/-- The flat parameter array the region finds is the host's reshape of the argument. -/
theorem entry_flat (c : Dev nD) :
    (V m c main_v0 : S256x512x512.Idx → EReal)
      = shapeCast S256x512x512 (m ((c.tc : Thread nD τ).loc main_arg1)) shapeCasts_S8x8x4x512x512_S256x512x512 := by
  show StableHlo.after hostOps0 (fun b => m (c, b)) (Proc.devRef .tc main_v0) = _
  after_results; rfl

/-- After the region the host reshapes the output array back to [8,8,4,512,512]; -/
theorem tail_output (c : Dev nD) :
    Pipeline.afterTail₀ cfgs (dats m) 0 (V0 m) [hostOps1] c main_v2
      = shapeCast S8x8x4x512x512 (flatO (V m c main_v0)) shapeCasts_S256x512x512_S8x8x4x512x512 := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1_0)
      = flatO (V m c main_v0) from (Pipeline.withArrays_arr spec0 launch0.win.arr_inj c _ _ 1).trans (finalO m c)]
  rfl

/-- and the weights array likewise. -/
theorem tail_weights (c : Dev nD) :
    Pipeline.afterTail₀ cfgs (dats m) 0 (V0 m) [hostOps1] c main_v3
      = shapeCast S8x8x4x512x512 (flatW (V m c main_v0)) shapeCasts_S256x512x512_S8x8x4x512x512 := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v1_1)
      = flatW (V m c main_v0) from (Pipeline.withArrays_arr spec0 launch0.win.arr_inj c _ _ 2).trans (finalW m c)]
  rfl

/-- Head (a, b, g) of the parameter array. -/
def argHead (Q : S8x8x4x512x512.Idx → EReal) (a b : Fin 8) (g : Fin 4) : Head := fun s e => Q (ix5 a b g s e)

/-- The flat position of head (a, b, g). -/
def flatPos (a b : Fin 8) (g : Fin 4) : Fin 256 :=
  ⟨(a.val * 8 + b.val) * 4 + g.val, by have := a.isLt; have := b.isLt; have := g.isLt; omega⟩

/-- Head `flatPos a b g` of the reshaped array is head (a, b, g) of the argument. -/
theorem flatHead_reshape (Q : S8x8x4x512x512.Idx → EReal) (a b : Fin 8) (g : Fin 4) :
    flatHead (shapeCast S256x512x512 Q shapeCasts_S8x8x4x512x512_S256x512x512) (flatPos a b g) = argHead Q a b g := by
  funext s e
  show shapeCast S256x512x512 Q shapeCasts_S8x8x4x512x512_S256x512x512 (ix3 (flatPos a b g) s e) = Q (ix5 a b g s e)
  refine shapeCast_apply Q shapeCasts_S8x8x4x512x512_S256x512x512 (ix3 (flatPos a b g) s e) (ix5 a b g s e) ?_
  rw [Shape.rowMajor_val_five, Shape.rowMajor_val_three]
  rfl

/-- The reshaped results read at (a, b, g, s, ·): the flat functions at head `flatPos a b g`. -/
theorem reshape_back_apply (G : S256x512x512.Idx → EReal) (a b : Fin 8) (g : Fin 4) (s e : Fin 512) :
    shapeCast S8x8x4x512x512 G shapeCasts_S256x512x512_S8x8x4x512x512 (ix5 a b g s e) = G (ix3 (flatPos a b g) s e) := by
  refine shapeCast_apply G shapeCasts_S256x512x512_S8x8x4x512x512 (ix5 a b g s e) (ix3 (flatPos a b g) s e) ?_
  rw [Shape.rowMajor_val_five, Shape.rowMajor_val_three]
  rfl

/-! ## The run, read -/

/-- Every weakly fair execution of the idealized kernel program terminates with the first two results at the
    reshaped flat functions of the reshaped parameter array, the third at what the host's mask operations leave, and the
    arguments unchanged. -/
theorem run_values : θ_run defs (onTc (τ := τ) (main (F := Ideal))) ⟨m, fun _ => 0, ρ⟩ fun r => ∀ c : Dev nD,
      r.2.mem ((c.tc : Thread nD τ).loc main_v2)
        = shapeCast S8x8x4x512x512 (flatO (shapeCast S256x512x512 (m ((c.tc : Thread nD τ).loc main_arg1)) shapeCasts_S8x8x4x512x512_S256x512x512)) shapeCasts_S256x512x512_S8x8x4x512x512
      ∧ r.2.mem ((c.tc : Thread nD τ).loc main_v3)
        = shapeCast S8x8x4x512x512 (flatW (shapeCast S256x512x512 (m ((c.tc : Thread nD τ).loc main_arg1)) shapeCasts_S8x8x4x512x512_S256x512x512)) shapeCasts_S256x512x512_S8x8x4x512x512
      ∧ r.2.mem ((c.tc : Thread nD τ).loc main_v20) = Pipeline.afterTail₀ cfgs (dats m) 0 (V0 m) [hostOps1] c main_v20
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans ((tail_output m c).trans (by rw [entry_flat])),
     ((h c).2 main_v3 (Pipeline.mem_restRefs_of main_v3 (by decide) (by decide))).trans ((tail_weights m c).trans (by rw [entry_flat])),
     (h c).2 main_v20 (Pipeline.mem_restRefs_of main_v20 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- The output result at (a, b, g, s, e): the weighted values of head (a, b, g) of the argument. -/
theorem output_result (Q : S8x8x4x512x512.Idx → EReal) (a b : Fin 8) (g : Fin 4) (s e : Fin 512) :
    shapeCast S8x8x4x512x512 (flatO (shapeCast S256x512x512 Q shapeCasts_S8x8x4x512x512_S256x512x512)) shapeCasts_S256x512x512_S8x8x4x512x512 (ix5 a b g s e)
      = attend (softW (kerShift scaleC (argHead Q a b g))) (argHead Q a b g) s e := by
  rw [reshape_back_apply]
  show attend (softW (kerShift scaleC (flatHead _ (flatPos a b g)))) (flatHead _ (flatPos a b g)) s e = _
  rw [flatHead_reshape]

/-- The weights result at (a, b, g, s, t): the softmax weights of head (a, b, g) of the argument. -/
theorem weights_result (Q : S8x8x4x512x512.Idx → EReal) (a b : Fin 8) (g : Fin 4) (s t : Fin 512) :
    shapeCast S8x8x4x512x512 (flatW (shapeCast S256x512x512 Q shapeCasts_S8x8x4x512x512_S256x512x512)) shapeCasts_S256x512x512_S8x8x4x512x512 (ix5 a b g s t)
      = softW (kerShift scaleC (argHead Q a b g)) s t := by
  rw [reshape_back_apply]
  show softW (kerShift scaleC (flatHead _ (flatPos a b g))) s t = _
  rw [flatHead_reshape]

end Cert.Attention.KernelRun

end
-- ==== Proof.RefHead.lean ====
/-
  The reference program's two float results, read at an index on the extended reals.

  The reference computes, for every head `(a, b, g)` of the parameter array, the logits
  `(∑ e, X s e · X t e) / D + M s t` with `D` the binary32 nearest `√512` and `M` a mask that is the
  constant `-10000` (the mask multiplies `-10000` by the sum of the two indicator values of `t > s`
  and `t ≤ s`, of which exactly one is `1`).  It then subtracts the row maximum, exponentiates,
  normalises by the row sum (result 1, the weights) and multiplies the weights into the value rows
  (result 0, the output).  This module reads both results at an index `ix5 a b g s t` and states
  them through the functions of the specification.
-/
import proofs.«163134_j39676907885408_2_alg».proof.Proof.Spec
import proofs.«163134_j39676907885408_2_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce

noncomputable section

namespace Cert.Attention.Ref

open Idealize.ShloMosaic Idealize.ShloMosaic.ValueIdx Cert.ReferenceIdeal Cert.ReferenceIdeal.Gen Cert.ReferenceIdeal.Read Cert.Attention

/-- The divisor of the logits: the binary32 value nearest `√512`. -/
def divD : EReal := ((11863283 / 524288 : ℝ) : EReal)
/-- The constant mask `-10000`. -/
def maskC : Head := fun _ _ => ((-10000 : ℝ) : EReal)

/-- Head `(a, b, g)` of the parameter array. -/
def headAt (Q : (⟨S8x8x4x512x512, .f32⟩ : BufTy).Contents (Elt Ideal)) (a b : Fin 8) (g : Fin 4) : Head :=
  fun s e => Q (ix5 a b g s e)

/-! ## The mask -/

/-- Of the signed comparisons `x > y` and `x ≤ y` exactly one holds, so their two indicator bits add up to one. -/
theorem cmpi_sgt_add_sle (x y : BitVec 32) :
    (IntOp.cmpi .sgt x y).toNat + (IntOp.cmpi .sle x y).toNat = 1 := by
  unfold IntOp.cmpi
  simp only [BitVec.slt, BitVec.sle]
  by_cases h : y.toInt < x.toInt
  · have h' : ¬ x.toInt ≤ y.toInt := by omega
    simp [h, h']
  · have h' : x.toInt ≤ y.toInt := by omega
    simp [h, h']

/-- An unsigned one-bit integer as an extended real is its value. -/
theorem uitofp_bit (b : BitVec 1) : FloatOps.uitofp (F := Ideal) .f32 b = ((b.toNat : ℝ) : EReal) := rfl

/-- The mask before it is broadcast over the heads is `-10000` everywhere. -/
theorem mask16_apply (j : S4x4x512x512.Idx) : val_main_v16 (F := Ideal) j = ((-10000 : ℝ) : EReal) := by
  rw [val_main_v16_apply, val_main_v15_apply, val_main_cst_apply, val_main_v14_apply, val_main_v13_apply,
    val_main_v6_apply, val_main_v12_apply, val_main_v5_apply, val_main_v11_apply]
  simp only [Ideal.mulf_def, Ideal.addf_def, Ideal.ofBits_def, word_mask, uitofp_bit]
  have h9 : val_main_v9 (F := Ideal) = val_main_v3 (F := Ideal) := rfl
  have h10 : val_main_v10 (F := Ideal) = val_main_v4 (F := Ideal) := rfl
  rw [h9, h10, ← EReal.coe_add, ← Nat.cast_add, cmpi_sgt_add_sle, Nat.cast_one, EReal.coe_one, mul_one]

/-- The mask entry of every head at every pair of rows is `-10000`. -/
theorem mask_apply (a b : Fin 8) (g : Fin 4) (s t : Fin 512) :
    val_main_v23 (F := Ideal) (ix5 a b g s t) = ((-10000 : ℝ) : EReal) := by
  rw [val_main_v23_apply, val_main_v22_apply, val_main_v21_apply, val_main_v20_apply, mask16_apply]

/-! ## Where the composed index functions of the stages land -/

theorem lidx17_ix5 (a b : Fin 8) (g : Fin 4) (s t k : Fin 512) :
    lidx_main_v17 (ix5 a b g s t) k = ix5 a b g s k :=
  funext fun c => Fin.ext (by match c with | ⟨0, _⟩ => rfl | ⟨1, _⟩ => rfl | ⟨2, _⟩ => rfl | ⟨3, _⟩ => rfl | ⟨4, _⟩ => rfl)

theorem ridx17_ix5 (a b : Fin 8) (g : Fin 4) (s t k : Fin 512) :
    ridx_main_v17 (ix5 a b g s t) k = ix5 a b g t k :=
  funext fun c => Fin.ext (by match c with | ⟨0, _⟩ => rfl | ⟨1, _⟩ => rfl | ⟨2, _⟩ => rfl | ⟨3, _⟩ => rfl | ⟨4, _⟩ => rfl)

theorem idx28_idx29_ix5 (a b : Fin 8) (g : Fin 4) (s t : Fin 512) :
    idx_main_v28 (idx_main_v29 (ix5 a b g s t)) = ix4 a b g s :=
  funext fun c => Fin.ext (by match c with | ⟨0, _⟩ => rfl | ⟨1, _⟩ => rfl | ⟨2, _⟩ => rfl | ⟨3, _⟩ => rfl)

theorem idx33_idx34_ix5 (a b : Fin 8) (g : Fin 4) (s t : Fin 512) :
    idx_main_v33 (idx_main_v34 (ix5 a b g s t)) = ix4 a b g s :=
  funext fun c => Fin.ext (by match c with | ⟨0, _⟩ => rfl | ⟨1, _⟩ => rfl | ⟨2, _⟩ => rfl | ⟨3, _⟩ => rfl)

theorem idx32_ix4 (a b : Fin 8) (g : Fin 4) (s k : Fin 512) :
    idx_main_v32 (ix4 a b g s) k = ix5 a b g s k :=
  funext fun c => Fin.ext (by match c with | ⟨0, _⟩ => rfl | ⟨1, _⟩ => rfl | ⟨2, _⟩ => rfl | ⟨3, _⟩ => rfl | ⟨4, _⟩ => rfl)

theorem lidx36_ix5 (a b : Fin 8) (g : Fin 4) (s e k : Fin 512) :
    lidx_main_v36 (ix5 a b g s e) k = ix5 a b g s k :=
  funext fun c => Fin.ext (by match c with | ⟨0, _⟩ => rfl | ⟨1, _⟩ => rfl | ⟨2, _⟩ => rfl | ⟨3, _⟩ => rfl | ⟨4, _⟩ => rfl)

theorem ridx36_ix5 (a b : Fin 8) (g : Fin 4) (s e k : Fin 512) :
    ridx_main_v36 (ix5 a b g s e) k = ix5 a b g k e :=
  funext fun c => Fin.ext (by match c with | ⟨0, _⟩ => rfl | ⟨1, _⟩ => rfl | ⟨2, _⟩ => rfl | ⟨3, _⟩ => rfl | ⟨4, _⟩ => rfl)

/-! ## The logits -/

/-- The logits of head `(a, b, g)`: the product of rows `s` and `t` over `D`, plus the mask entry. -/
theorem score_apply (Q : (⟨S8x8x4x512x512, .f32⟩ : BufTy).Contents (Elt Ideal)) (a b : Fin 8) (g : Fin 4) (s t : Fin 512) :
    val_main_v24 (F := Ideal) Q (ix5 a b g s t) = refScore divD maskC (headAt Q a b g) s t := by
  rw [val_main_v24_apply, val_main_v19_apply, val_main_v17_apply, val_main_v18_apply, val_main_cst_0_apply, mask_apply]
  simp only [Ideal.addf_def, Ideal.hostDivf_def, Ideal.ofBits_def, word_sqrt512, lidx17_ix5, ridx17_ix5]
  rfl

/-! ## The row maximum -/

/-- Dropping the last axis of the five leaves the first four. -/
theorem reduces_d4 : S8x8x4x512x512.Reduces [4] S8x8x4x512 := by decide

/-- The index over `(a, b, g, s)` with `k` on the dropped last axis. -/
theorem lift_ix4 (a b : Fin 8) (g : Fin 4) (s k : Fin 512) :
    reduces_d4.lift (ix4 a b g s) k = ix5 a b g s k :=
  funext fun c => Fin.ext (by match c with | ⟨0, _⟩ => rfl | ⟨1, _⟩ => rfl | ⟨2, _⟩ => rfl | ⟨3, _⟩ => rfl | ⟨4, _⟩ => rfl)

/-- The maximum of the logits over the last axis is the row maximum. -/
theorem rowmax_apply (Q : (⟨S8x8x4x512x512, .f32⟩ : BufTy).Contents (Elt Ideal)) (a b : Fin 8) (g : Fin 4) (s : Fin 512) :
    val_main_v25 (F := Ideal) Q (ix4 a b g s) = rowMax (refScore divD maskC (headAt Q a b g)) s := by
  unfold val_main_v25
  rw [Host.reduce_eq_fold_single (FloatOps.maximumf (F := Ideal) (φ := .f32)) _ _
    reducesTo_S8x8x4x512x512_S8x8x4x512_d4 reduces_d4 h_S_, val_main_cst_1_apply, Ideal.ofBits_def, word_neg_inf]
  have hrow : (val_main_v24 (F := Ideal) Q ∘ reduces_d4.lift (ix4 a b g s))
      = refScore divD maskC (headAt Q a b g) s :=
    funext fun k => (congrArg (val_main_v24 (F := Ideal) Q) (lift_ix4 a b g s k)).trans (score_apply Q a b g s k)
  rw [hrow]
  rfl

/-! ## The shifted logits, the weights and the output -/

/-- The logits less the row maximum (taken once more against `-∞`). -/
theorem shift_apply (Q : (⟨S8x8x4x512x512, .f32⟩ : BufTy).Contents (Elt Ideal)) (a b : Fin 8) (g : Fin 4) (s t : Fin 512) :
    val_main_v30 (F := Ideal) Q (ix5 a b g s t) = refShift divD maskC (headAt Q a b g) s t := by
  rw [val_main_v30_apply, val_main_v29_apply, val_main_v28_apply, val_main_v27_apply, val_main_v26_apply,
    val_main_cst_2_apply, idx28_idx29_ix5, rowmax_apply, score_apply]
  simp only [Ideal.subf_def, Ideal.maximumf_def, Ideal.ofBits_def, word_neg_inf]
  rfl

/-- The exponential of the shifted logits. -/
theorem exp_apply (Q : (⟨S8x8x4x512x512, .f32⟩ : BufTy).Contents (Elt Ideal)) (a b : Fin 8) (g : Fin 4) (s t : Fin 512) :
    val_main_v31 (F := Ideal) Q (ix5 a b g s t) = Ideal.exp (refShift divD maskC (headAt Q a b g) s t) := by
  rw [val_main_v31_apply, shift_apply, Ideal.hostUnary_exp_def]

/-- The sum of a row of exponentials (from the zero word, which adds nothing). -/
theorem rowsum_apply (Q : (⟨S8x8x4x512x512, .f32⟩ : BufTy).Contents (Elt Ideal)) (a b : Fin 8) (g : Fin 4) (s : Fin 512) :
    val_main_v32 (F := Ideal) Q (ix4 a b g s) = ∑ u : Fin 512, Ideal.exp (refShift divD maskC (headAt Q a b g) s u) := by
  rw [val_main_v32_apply, val_main_cst_3_apply, Ideal.ofBits_def, Ideal.ofBits_zero_f32, zero_add]
  refine Finset.sum_congr rfl fun k _ => ?_
  rw [idx32_ix4, exp_apply]

/-- Result 1: the softmax weights of head `(a, b, g)`. -/
theorem weights_apply (Q : (⟨S8x8x4x512x512, .f32⟩ : BufTy).Contents (Elt Ideal)) (a b : Fin 8) (g : Fin 4) (s t : Fin 512) :
    val_main_v35 (F := Ideal) Q (ix5 a b g s t) = softW (refShift divD maskC (headAt Q a b g)) s t := by
  rw [val_main_v35_apply, val_main_v34_apply, val_main_v33_apply, idx33_idx34_ix5, rowsum_apply, exp_apply,
    Ideal.hostDivf_def]
  rfl

/-- Result 0: the weights multiplied into the value rows of head `(a, b, g)`. -/
theorem output_apply (Q : (⟨S8x8x4x512x512, .f32⟩ : BufTy).Contents (Elt Ideal)) (a b : Fin 8) (g : Fin 4) (s e : Fin 512) :
    val_main_v36 (F := Ideal) Q (ix5 a b g s e)
      = attend (softW (refShift divD maskC (headAt Q a b g))) (headAt Q a b g) s e := by
  rw [val_main_v36_apply]
  refine Finset.sum_congr rfl fun k _ => ?_
  rw [lidx36_ix5, ridx36_ix5, weights_apply]
  rfl

end Cert.Attention.Ref

end
-- ==== Proof.lean ====
/-
  Scaled dot-product attention on a tied parameter: the Pallas kernel against its jnp reference, on the extended reals.

  Both programs compute, for each of the 256 heads X (a 512 × 512 matrix of the parameter array q), the softmax weights
  of the logits and the weights applied to the rows of X, and a constant mask that reads no input.  They differ in
  two places.  The kernel multiplies each entry of the query row by the constant c before the product with the key
  row; the reference divides the product by D = binary32(√512).  The kernel's constant is NAMED c = 1 / D, so that on
  real inputs c · (X Xᵀ) = (X Xᵀ) / D.  And the reference adds the mask -10000 to every logit before the softmax, which
  the kernel omits: on real logits a constant shift of a row leaves the logits less their row maximum, hence the
  softmax, unchanged.  Both steps need the inputs to be real numbers — the precondition — because on the extended
  reals a factor does not move across a sum and a shift does not cancel at the infinities.

  The kernel's arrays after its run are read off the generated frame run (KernelArrays.lean), its body's values at an
  index in KernelHead.lean; the reference's results at an index in RefHead.lean over the generated reading of its
  run; the law joining the two in Algebra.lean; the inputs are real by FiniteInputs.lean.
-/
import proofs.«163134_j39676907885408_2_alg».proof.Defs
import proofs.«163134_j39676907885408_2_alg».proof.Proof.Gen.Kernel
import proofs.«163134_j39676907885408_2_alg».proof.Proof.Gen.Kernel.Skeleton
import proofs.«163134_j39676907885408_2_alg».proof.Proof.Gen.Kernel.Launch
import proofs.«163134_j39676907885408_2_alg».proof.Proof.Gen.Kernel.Points
import proofs.«163134_j39676907885408_2_alg».proof.Proof.Gen.Kernel.Frame
import proofs.«163134_j39676907885408_2_alg».proof.Proof.Gen.KernelIdeal
import proofs.«163134_j39676907885408_2_alg».proof.Proof.Gen.KernelIdeal.Skeleton
import proofs.«163134_j39676907885408_2_alg».proof.Proof.Gen.KernelIdeal.Launch
import proofs.«163134_j39676907885408_2_alg».proof.Proof.Gen.KernelIdeal.Points
import proofs.«163134_j39676907885408_2_alg».proof.Proof.Gen.KernelIdeal.Frame
import proofs.«163134_j39676907885408_2_alg».proof.Proof.Gen.ReferenceIdeal
import proofs.«163134_j39676907885408_2_alg».proof.Proof.Gen.Pre_finite_inputs
import proofs.«163134_j39676907885408_2_alg».proof.Proof.Gen.ReferenceIdeal.Run
import proofs.«163134_j39676907885408_2_alg».proof.Proof.Gen.ReferenceIdeal.Read
import proofs.«163134_j39676907885408_2_alg».proof.Proof.Spec
import proofs.«163134_j39676907885408_2_alg».proof.Proof.Algebra
import proofs.«163134_j39676907885408_2_alg».proof.Proof.FiniteInputs
import proofs.«163134_j39676907885408_2_alg».proof.Proof.KernelHead
import proofs.«163134_j39676907885408_2_alg».proof.Proof.KernelArrays
import proofs.«163134_j39676907885408_2_alg».proof.Proof.RefHead
import Idealize.ShloMosaic.Adequacy
import Idealize.ShloMosaic.Init

set_option maxRecDepth 16384

noncomputable section

namespace Cert.Attention.Bridge

open Idealize.ShloMosaic Idealize.ShloMosaic.TcCoe Idealize.SL.Sem Idealize.ShloMosaic.StableHlo Idealize.ShloMosaic.ValueIdx
open Cert.Attention

/-- The common value of the output result: at (a, b, g, s, e) the weighted values of head (a, b, g). -/
def outputOf (Q : Cert.KernelIdeal.S8x8x4x512x512.Idx → EReal) : Cert.KernelIdeal.S8x8x4x512x512.Idx → EReal := fun i =>
  attend (softW (kerShift Kernel.scaleC (KernelRun.argHead Q (i 0) (i 1) (i 2)))) (KernelRun.argHead Q (i 0) (i 1) (i 2)) (i 3) (i 4)

/-- The common value of the weights result: at (a, b, g, s, t) the softmax weights of head (a, b, g). -/
def weightsOf (Q : Cert.KernelIdeal.S8x8x4x512x512.Idx → EReal) : Cert.KernelIdeal.S8x8x4x512x512.Idx → EReal := fun i =>
  softW (kerShift Kernel.scaleC (KernelRun.argHead Q (i 0) (i 1) (i 2))) (i 3) (i 4)

/-- On a parameter array of reals the reference's shifted logits of a head are the kernel's. -/
theorem shifts_agree (Q : Cert.KernelIdeal.S8x8x4x512x512.Idx → EReal) (hQ : ∀ i, ∃ r : ℝ, Q i = ((r : ℝ) : EReal))
    (a b : Fin 8) (g : Fin 4) :
    refShift Ref.divD Ref.maskC (Ref.headAt Q a b g) = kerShift Kernel.scaleC (KernelRun.argHead Q a b g) := by
  choose r hr using hQ
  have hX : Ref.headAt Q a b g = fun s e => ((r (ix5 a b g s e) : ℝ) : EReal) := funext fun s => funext fun e => hr _
  have hY : KernelRun.argHead Q a b g = fun s e => ((r (ix5 a b g s e) : ℝ) : EReal) := funext fun s => funext fun e => hr _
  rw [hX, hY]
  exact (shift_eq fun s e => r (ix5 a b g s e)).symm

/-- The kernel's output result is `outputOf` of the parameter array; -/
theorem kernel_output (Q : Cert.KernelIdeal.S8x8x4x512x512.Idx → EReal) :
    shapeCast Cert.KernelIdeal.S8x8x4x512x512 (KernelRun.flatO (shapeCast Cert.KernelIdeal.S256x512x512 Q Cert.KernelIdeal.Facts₀.shapeCasts_S8x8x4x512x512_S256x512x512)) Cert.KernelIdeal.Facts₀.shapeCasts_S256x512x512_S8x8x4x512x512
      = outputOf Q := by
  funext i
  obtain ⟨a, b, g, s, e, rfl⟩ : ∃ (a b : Fin 8) (g : Fin 4) (s e : Fin 512), i = ix5 a b g s e := ⟨i 0, i 1, i 2, i 3, i 4, eq_ix5 i⟩
  exact KernelRun.output_result Q a b g s e

/-- its weights result `weightsOf` of it. -/
theorem kernel_weights (Q : Cert.KernelIdeal.S8x8x4x512x512.Idx → EReal) :
    shapeCast Cert.KernelIdeal.S8x8x4x512x512 (KernelRun.flatW (shapeCast Cert.KernelIdeal.S256x512x512 Q Cert.KernelIdeal.Facts₀.shapeCasts_S8x8x4x512x512_S256x512x512)) Cert.KernelIdeal.Facts₀.shapeCasts_S256x512x512_S8x8x4x512x512
      = weightsOf Q := by
  funext i
  obtain ⟨a, b, g, s, t, rfl⟩ : ∃ (a b : Fin 8) (g : Fin 4) (s t : Fin 512), i = ix5 a b g s t := ⟨i 0, i 1, i 2, i 3, i 4, eq_ix5 i⟩
  exact KernelRun.weights_result Q a b g s t

/-- On a parameter array of reals the reference's output result is `outputOf` of it; -/
theorem reference_output (Q : Cert.KernelIdeal.S8x8x4x512x512.Idx → EReal) (hQ : ∀ i, ∃ r : ℝ, Q i = ((r : ℝ) : EReal)) :
    Cert.ReferenceIdeal.Read.val_main_v36 (F := Ideal) Q = outputOf Q := by
  funext i
  obtain ⟨a, b, g, s, e, rfl⟩ : ∃ (a b : Fin 8) (g : Fin 4) (s e : Fin 512), i = ix5 a b g s e := ⟨i 0, i 1, i 2, i 3, i 4, eq_ix5 i⟩
  rw [Ref.output_apply, shifts_agree Q hQ]
  rfl

/-- its weights result `weightsOf` of it. -/
theorem reference_weights (Q : Cert.KernelIdeal.S8x8x4x512x512.Idx → EReal) (hQ : ∀ i, ∃ r : ℝ, Q i = ((r : ℝ) : EReal)) :
    Cert.ReferenceIdeal.Read.val_main_v35 (F := Ideal) Q = weightsOf Q := by
  funext i
  obtain ⟨a, b, g, s, t, rfl⟩ : ∃ (a b : Fin 8) (g : Fin 4) (s t : Fin 512), i = ix5 a b g s t := ⟨i 0, i 1, i 2, i 3, i 4, eq_ix5 i⟩
  rw [Ref.weights_apply, shifts_agree Q hQ]
  rfl

/-- The mask: the kernel program's host operations after the region are the reference's first operations, on no input. -/
theorem kernel_mask (m : (ℓ : Loc Cert.KernelIdeal.nD Cert.KernelIdeal.τ Cert.KernelIdeal.sig) → Buf (Elt Ideal) ℓ) (c : Dev Cert.KernelIdeal.nD) :
    Pipeline.afterTail₀ Cert.KernelIdeal.cfgs (Cert.KernelIdeal.Gen.dats m) 0 (Cert.KernelIdeal.Gen.V0 m) [Cert.KernelIdeal.Gen.hostOps1] c Cert.KernelIdeal.main_v20
      = Cert.ReferenceIdeal.Read.val_main_v16 (F := Ideal) := by
  unfold Pipeline.afterTail₀
  show StableHlo.after Cert.KernelIdeal.Gen.hostOps1 _ (Proc.devRef .tc Cert.KernelIdeal.main_v20) = _
  after_results
  rfl

end Cert.Attention.Bridge

namespace Cert.Proof

open Idealize.ShloMosaic Idealize.ShloMosaic.TcCoe Idealize.SL.Sem Cert.Attention

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- The two occurrences of the scale are named the reciprocal of the reference's divisor. -/
theorem preserves : Cert.preserves_Kernel_KernelIdeal :=
  ⟨IdealRules.named_const.statement Cert.KernelIdeal.κ "inv_sqrt_s" .f32 0x3D3504F3#32 ((524288 / 11863283 : ℝ) : EReal) rfl,
   IdealRules.named_const.statement Cert.KernelIdeal.κ "inv_sqrt_s" .f32 0x3D3504F3#32 ((524288 / 11863283 : ℝ) : EReal) rfl⟩

/-- From agreeing real inputs both programs end with the same three results. -/
theorem algebraic : Cert.algebraic_KernelIdeal_ReferenceIdeal := by
  intro m ρ m' ρ' hpre hagree
  have hreal : ∀ c : Dev Cert.KernelIdeal.nD, ∀ i, ∃ r : ℝ,
      m ((c.tc : Thread Cert.KernelIdeal.nD Cert.KernelIdeal.τ).loc Cert.KernelIdeal.main_arg1) i = ((r : ℝ) : EReal) :=
    fun c => Finite.real_of_pre _ _ (hpre c)
  refine ⟨fun c => Bridge.outputOf (m ((c.tc : Thread Cert.KernelIdeal.nD Cert.KernelIdeal.τ).loc Cert.KernelIdeal.main_arg1)),
    fun c => Bridge.weightsOf (m ((c.tc : Thread Cert.KernelIdeal.nD Cert.KernelIdeal.τ).loc Cert.KernelIdeal.main_arg1)),
    fun _ => Cert.ReferenceIdeal.Read.val_main_v16 (F := Ideal), ?_, ?_⟩
  · exact (θ_run Cert.KernelIdeal.defs _ _).mono (fun r h c =>
      ⟨(h c).1.trans (Bridge.kernel_output _), (h c).2.1.trans (Bridge.kernel_weights _),
       (h c).2.2.1.trans (Bridge.kernel_mask m c), (h c).2.2.2.1, (h c).2.2.2.2⟩)
      (KernelRun.run_values m ρ)
  · refine (θ_run Cert.ReferenceIdeal.defs _ _).mono (fun r h c => ⟨?_, ?_, ?_, (h c).2.2.2.1, (h c).2.2.2.2⟩)
      (Cert.ReferenceIdeal.Value.run (F := Ideal) m' ρ')
    · rw [(h c).1, Cert.ReferenceIdeal.Read.val_main_v36_eq, (hagree c).2]
      exact Bridge.reference_output _ (hreal c)
    · rw [(h c).2.1, Cert.ReferenceIdeal.Read.val_main_v35_eq, (hagree c).2]
      exact Bridge.reference_weights _ (hreal c)
    · exact (h c).2.2.1.trans Cert.ReferenceIdeal.Read.val_main_v16_eq

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
